-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x84 : Shape := ⟨2, ![1024, 84]⟩
abbrev S84 : Shape := ⟨1, ![84]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x84 : S_.BroadcastsInDim S1024x84 (![] : Fin 0 → Fin S1024x84.rank)
  reducesTo_S1024x84_S_d0_1 : S1024x84.ReducesTo [0, 1] S_
  bcast_S_S84 : S_.BroadcastsInDim S84 (![] : Fin 0 → Fin S84.rank)
  reducesTo_S84_S_d0 : S84.ReducesTo [0] S_

variable [Facts]

def fn {F : FTy → Type} [FloatOps F] (main_arg0 : FVec F S65536x1024 .f32) (main_arg1 : FVec F S1024x84 .f32) (main_arg2 : FVec F S84 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x84 .f32 := Host.absf main_arg1
  let main_cst_0 : FVec F S_ .f32 := constant S_ .f32 0x7F800000#32
  let main_v5 : FVec F S1024x84 .f32 := broadcastInDim S1024x84 ![] bcast_S_S1024x84 main_cst_0
  let main_v6 : IVec S1024x84 1 := cmpf .olt main_v4 main_v5
  let main_c_1 : IVec S_ 1 := constantI S_ 1 1#1
  let main_v7 : IVec S_ 1 := (fun x v => Host.reduce IntOp.andi x v reducesTo_S1024x84_S_d0_1 h_S_) main_v6 main_c_1
  let main_v8 : IVec S_ 1 := andi main_v3 main_v7
  let main_v9 : FVec F S84 .f32 := Host.absf main_arg2
  let main_cst_2 : FVec F S_ .f32 := constant S_ .f32 0x7F800000#32
  let main_v10 : FVec F S84 .f32 := broadcastInDim S84 ![] bcast_S_S84 main_cst_2
  let main_v11 : IVec S84 1 := cmpf .olt main_v9 main_v10
  let main_c_3 : IVec S_ 1 := constantI S_ 1 1#1
  let main_v12 : IVec S_ 1 := (fun x v => Host.reduce IntOp.andi x v reducesTo_S84_S_d0 h_S_) main_v11 main_c_3
  let main_v13 : IVec S_ 1 := andi main_v8 main_v12
  main_v13
-- ==== Kernel.lean ====
abbrev S65536x1024 : Shape := ⟨2, ![65536, 1024]⟩
abbrev S1024x84 : Shape := ⟨2, ![1024, 84]⟩
abbrev S84 : Shape := ⟨1, ![84]⟩
abbrev S1x84 : Shape := ⟨2, ![1, 84]⟩
abbrev S65536x84 : Shape := ⟨2, ![65536, 84]⟩
abbrev S2048x1024 : Shape := ⟨2, ![2048, 1024]⟩
abbrev S2048x84 : Shape := ⟨2, ![2048, 84]⟩

abbrev nBuf : Space → Nat
  | .hbm => 5
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x84, .f32⟩
  | .hbm, ⟨2, _⟩ => ⟨S84, .f32⟩
  | .hbm, ⟨3, _⟩ => ⟨S1x84, .f32⟩
  | .hbm, ⟨4, _⟩ => ⟨S65536x84, .f32⟩
  | .local _ .vmem, ⟨0, _⟩ => ⟨S2048x1024, .f32⟩
  | .local _ .vmem, ⟨1, _⟩ => ⟨S2048x1024, .f32⟩
  | .local _ .vmem, ⟨2, _⟩ => ⟨S1024x84, .f32⟩
  | .local _ .vmem, ⟨3, _⟩ => ⟨S1x84, .f32⟩
  | .local _ .vmem, ⟨4, _⟩ => ⟨S2048x84, .f32⟩
  | .local _ .vmem, ⟨5, _⟩ => ⟨S2048x84, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x84 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S84_S1x84 : S84.ShapeCasts S1x84
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x84_S1024x84_0_0 : ∀ a, (![0, 0] : Fin 2 → Nat) a + S1024x84.size a ≤ S1024x84.size a
  h_S1024x84 : 0 < S1024x84.numel
  inb_S1x84_S1x84_0_0 : ∀ a, (![0, 0] : Fin 2 → Nat) a + S1x84.size a ≤ S1x84.size a
  h_S1x84 : 0 < S1x84.numel
  shapeCasts_S1x84_S1x84 : S1x84.ShapeCasts S1x84
  broadcasts_S1x84_S2048x84 : S1x84.Broadcasts S2048x84
  inb_S2048x84_S2048x84_0_0 : ∀ a, (![0, 0] : Fin 2 → Nat) a + S2048x84.size a ≤ S2048x84.size a
  h_S2048x84 : 0 < S2048x84.numel
  dot_S2048x1024_S1024x84_S2048x84_1_0_0_1_n_n_wf : DotDims.WF S2048x1024 S1024x84 S2048x84 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x84.size a ≤ S1024x84.size a
  hwx0_1 : ∀ i : grid0.Coords, EltTy.bits .f32 = 32 ∨ (Rect.block (s := S1024x84) S1024x84.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x84.size a ≤ S1x84.size a
  hwx0_2 : ∀ i : grid0.Coords, EltTy.bits .f32 = 32 ∨ (Rect.block (s := S1x84) S1x84.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x84.size a ≤ S65536x84.size a
  hwx0_3 : ∀ i : grid0.Coords, EltTy.bits .f32 = 32 ∨ (Rect.block (s := S65536x84) S2048x84.size (cc0_transform_3 i) (hinb0_3 i)).WholeWords (EltTy.packing .f32)

variable [Facts₀]

def dot_S2048x1024_S1024x84_S2048x84_1_0_0_1_n_n : DotDims S2048x1024 S1024x84 S2048x84 where
  lhsContracting := [1]
  rhsContracting := [0]
  lhsNonContracting := [0]
  rhsNonContracting := [1]
  lhsBatch := []
  rhsBatch := []
  wf := dot_S2048x1024_S1024x84_S2048x84_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x84.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x84.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x84.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x84 : Shape := ⟨2, ![1024, 84]⟩
abbrev S84 : Shape := ⟨1, ![84]⟩
abbrev S65536x84 : Shape := ⟨2, ![65536, 84]⟩
abbrev S1x84 : Shape := ⟨2, ![1, 84]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x84, .f32⟩
  | .hbm, ⟨2, _⟩ => ⟨S84, .f32⟩
  | .hbm, ⟨3, _⟩ => ⟨S65536x84, .f32⟩
  | .hbm, ⟨4, _⟩ => ⟨S1x84, .f32⟩
  | .hbm, ⟨5, _⟩ => ⟨S65536x84, .f32⟩
  | .hbm, ⟨6, _⟩ => ⟨S65536x84, .f32⟩
  | .hbm, ⟨7, _⟩ => ⟨S_, .f32⟩
  | .hbm, ⟨8, _⟩ => ⟨S65536x84, .f32⟩
  | .hbm, ⟨9, _⟩ => ⟨S65536x84, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S84_S1x84_1 : S84.BroadcastsInDim S1x84 (![1] : Fin 1 → Fin S1x84.rank)
  bcast_S1x84_S65536x84_0_1 : S1x84.BroadcastsInDim S65536x84 (![0, 1] : Fin 2 → Fin S65536x84.rank)
  bcast_S_S65536x84 : S_.BroadcastsInDim S65536x84 (![] : Fin 0 → Fin S65536x84.rank)
  dot_S65536x1024_S1024x84_S65536x84_1_0_0_1_n_n_wf : DotDims.WF S65536x1024 S1024x84 S65536x84 [1] [0] [0] [1] [] []

variable [Facts₀]

def dot_S65536x1024_S1024x84_S65536x84_1_0_0_1_n_n : DotDims S65536x1024 S1024x84 S65536x84 where
  lhsContracting := [1]
  rhsContracting := [0]
  lhsNonContracting := [0]
  rhsNonContracting := [1]
  lhsBatch := []
  rhsBatch := []
  wf := dot_S65536x1024_S1024x84_S65536x84_1_0_0_1_n_n_wf

class Facts : Prop extends Facts₀ where

variable [Facts]
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.BlockPayload.lean ====
/-
  What the kernel body computes on one block, read at an entry.

  At a grid point the body holds a block `xb` of 2048 rows of `x`, the whole weight matrix `wb` and the bias as
  one row `bb` of 84 entries. It narrows `xb` and `wb` to a shorter float format — the identity on exact values —
  multiplies them on the matrix unit into a zero accumulator, adds the bias row repeated down the 2048 rows, and
  takes the maximum with zero. At row `p` of the block and column `q`:

      max (∑ a, xb (p, a) * wb (a, q) + bb (0, q)) 0.

  The product into a zero accumulator is the plain sum over the contracted coordinate (`LibPlainDot`); the repeated
  row reads its one row at the same column; the cast of the bias row to its own shape changes nothing.
-/
import proofs.«144805_j54735063220554_1_alg».proof.Proof.Gen.KernelIdeal.Skeleton
import proofs.«144805_j54735063220554_1_alg».proof.Proof.LibPlainDot
import Idealize.ShloMosaic.Lib.Pipeline.Value
import Idealize.ShloMosaic.Lib.ValueLayout

noncomputable section

open scoped BigOperators

namespace Cert.BlockPayload

open Cert.KernelIdeal Cert.KernelIdeal.Gen Idealize.ShloMosaic Idealize.ShloMosaic.ValueIdx

/-! ## The product's dimension numbers are the plain ones -/

theorem left_row (i : S2048x84.Idx) (q : dot_S2048x1024_S1024x84_S2048x84_1_0_0_1_n_n.contr.Idx) :
    (dot_S2048x1024_S1024x84_S2048x84_1_0_0_1_n_n.lhsIdx i q 0).val = (i 0).val := by
  unfold DotDims.lhsIdx
  rw [dif_neg (show ¬(0 : Fin S2048x1024.rank) ∈ dot_S2048x1024_S1024x84_S2048x84_1_0_0_1_n_n.lhsBatch by decide),
    dif_pos (show (0 : Fin S2048x1024.rank) ∈ dot_S2048x1024_S1024x84_S2048x84_1_0_0_1_n_n.lhsNonContracting by decide)]
  rfl

theorem left_col (i : S2048x84.Idx) (q : dot_S2048x1024_S1024x84_S2048x84_1_0_0_1_n_n.contr.Idx) :
    (dot_S2048x1024_S1024x84_S2048x84_1_0_0_1_n_n.lhsIdx i q 1).val = (q ⟨0, by decide⟩).val :=
  dot_S2048x1024_S1024x84_S2048x84_1_0_0_1_n_n.lhsIdx_val_of_single rfl i q

theorem right_row (i : S2048x84.Idx) (q : dot_S2048x1024_S1024x84_S2048x84_1_0_0_1_n_n.contr.Idx) :
    (dot_S2048x1024_S1024x84_S2048x84_1_0_0_1_n_n.rhsIdx i q 0).val = (q ⟨0, by decide⟩).val :=
  dot_S2048x1024_S1024x84_S2048x84_1_0_0_1_n_n.rhsIdx_val_of_single rfl i q

theorem right_col (i : S2048x84.Idx) (q : dot_S2048x1024_S1024x84_S2048x84_1_0_0_1_n_n.contr.Idx) :
    (dot_S2048x1024_S1024x84_S2048x84_1_0_0_1_n_n.rhsIdx i q 1).val = (i 1).val := by
  unfold DotDims.rhsIdx
  rw [dif_neg (show ¬(1 : Fin S1024x84.rank) ∈ dot_S2048x1024_S1024x84_S2048x84_1_0_0_1_n_n.rhsBatch by decide),
    dif_pos (show (1 : Fin S1024x84.rank) ∈ dot_S2048x1024_S1024x84_S2048x84_1_0_0_1_n_n.rhsNonContracting by decide)]
  rfl

/-! ## The block product and the repeated bias row at an entry -/

/-- The block product into zero at `(p, q)`: the sum over the 1024 features of `l (p, a) * r (a, q)`. -/
theorem block_product {φ₁ φ₂ : FTy} (l : FVec Ideal S2048x1024 φ₁) (r : FVec Ideal S1024x84 φ₂) (p : Fin 2048) (q : Fin 84) :
    matmul dot_S2048x1024_S1024x84_S2048x84_1_0_0_1_n_n none l r (constant S2048x84 .f32 0x00000000#32) (ix2 p q)
      = ∑ a : Fin 1024, l (ix2 p a) * r (ix2 a q) :=
  Cert.LibPlainDot.matmul_zero_plain dot_S2048x1024_S1024x84_S2048x84_1_0_0_1_n_n rfl rfl
    left_row left_col right_row right_col none l r p q

/-- The bias row, cast to its own shape and repeated down the block's rows, reads at `(p, q)` its entry `(0, q)`. -/
theorem bias_rows (bb : Vec Ideal S1x84 .f32) (p : Fin 2048) (q : Fin 84) :
    broadcastTo S2048x84 (shapeCast S1x84 bb shapeCasts_S1x84_S1x84) broadcasts_S1x84_S2048x84 (ix2 p q)
      = bb (ix2 (0 : Fin 1) q) := by
  rw [shapeCast_self]
  exact broadcastTo_1b_ab_apply bb broadcasts_S1x84_S2048x84 p q

/-! ## The payload -/

/-- The body's stored value at row `p` of the block and column `q`. -/
theorem payload_apply (xb : Vec Ideal S2048x1024 .f32) (wb : Vec Ideal S1024x84 .f32) (bb : Vec Ideal S1x84 .f32)
    (p : Fin 2048) (q : Fin 84) :
    k0_pay1 (F := Ideal) xb wb bb (ix2 p q)
      = max ((∑ a : Fin 1024, xb (ix2 p a) * wb (ix2 a q)) + bb (ix2 (0 : Fin 1) q)) (Ideal.ofBits .f32 0x00000000#32) := by
  unfold k0_pay1
  refine congrArg₂ max (congrArg₂ (· + ·) ?_ ?_) rfl
  · exact block_product _ _ p q
  · exact bias_rows bb p q

end Cert.BlockPayload

end
-- ==== Proof.AffineRelu.lean ====
/-
  The function both programs compute.

  For a matrix `x` of 65536 rows of 1024 features, a weight matrix `w` of 1024 rows and 84 columns, and a bias
  vector `b` of 84 entries, the result at row `r` and column `n` is

      max (∑ k, x (r, k) * w (k, n) + b n) 0,

  the rectified affine image of row `r`: nineteen small linear heads laid side by side, 84 output columns in all.
  Entries are extended reals. Only the commutative-monoid structure of `+`, the product of two entries, and `max`
  occur, so the two programs agree whether or not any entry is finite: no distributivity, no cancellation and no
  exchange of a factor with a sum is used. The zero that the sum is clipped against is the f32 word of all zero
  bits, the same word in both programs, so it is never evaluated.
-/
import Idealize.ShloMosaic.PureOps.Ideal
import Idealize.ShloMosaic.Lib.ValueIdx

noncomputable section

open scoped BigOperators

namespace Cert.AffineRelu

open Idealize.ShloMosaic Idealize.ShloMosaic.ValueIdx

/-- One row's inner product with one weight column: `∑ k, x (r, k) * w (k, n)` over the 1024 features. -/
def rowDot (x : (⟨2, ![65536, 1024]⟩ : Shape).Idx → EReal) (w : (⟨2, ![1024, 84]⟩ : Shape).Idx → EReal)
    (r : Fin 65536) (n : Fin 84) : EReal :=
  ∑ k : Fin 1024, x (ix2 r k) * w (ix2 k n)

/-- The rectified affine layer, entry by entry: the row's inner product with column `n`, plus the bias at `n`,
    clipped below at zero. -/
def affineRelu (x : (⟨2, ![65536, 1024]⟩ : Shape).Idx → EReal) (w : (⟨2, ![1024, 84]⟩ : Shape).Idx → EReal)
    (b : (⟨1, ![84]⟩ : Shape).Idx → EReal) : (⟨2, ![65536, 84]⟩ : Shape).Idx → EReal :=
  fun i => max (rowDot x w (i 0) (i 1) + b (ix1 (i 1))) (Ideal.ofBits .f32 0x00000000#32)

/-- The layer at an entry written by its two coordinates. -/
theorem affineRelu_ix2 (x : (⟨2, ![65536, 1024]⟩ : Shape).Idx → EReal) (w : (⟨2, ![1024, 84]⟩ : Shape).Idx → EReal)
    (b : (⟨1, ![84]⟩ : Shape).Idx → EReal) (r : Fin 65536) (n : Fin 84) :
    affineRelu x w b (ix2 r n)
      = max ((∑ k : Fin 1024, x (ix2 r k) * w (ix2 k n)) + b (ix1 n)) (Ideal.ofBits .f32 0x00000000#32) := rfl

end Cert.AffineRelu

end
-- ==== Proof.KernelLayer.lean ====
/-
  The kernel's output array is the rectified affine layer.

  The grid has 32 points. Point `t` works on rows `2048 t … 2048 t + 2047` of `x`, on the whole weight matrix and on
  the bias laid out as one row (the host reshapes the 84-vector to a 1 × 84 array before the launch), and writes back
  rows `2048 t … 2048 t + 2047` of the output. By `BlockPayload.payload_apply` the entry it writes at row `p` of its
  block and column `q` is `max (∑ a, x (2048 t + p, a) * w (a, q) + b q) 0`: the layer at `(2048 t + p, q)`. So what
  each point writes back is its block of one whole-array function, the 32 row blocks cover every row (row `r` lies
  in block `r / 2048`), and the output array after the run is that function.
-/
import proofs.«144805_j54735063220554_1_alg».proof.Proof.Gen.KernelIdeal.Value
import proofs.«144805_j54735063220554_1_alg».proof.Proof.BlockPayload
import proofs.«144805_j54735063220554_1_alg».proof.Proof.AffineRelu
import Idealize.ShloMosaic.Lib.StableHlo.Run

noncomputable section

open scoped BigOperators

namespace Cert.KernelLayer

open Cert.KernelIdeal Cert.KernelIdeal.Gen Idealize.ShloMosaic Idealize.ShloMosaic.TcCoe Idealize.SL.Sem
open Idealize.ShloMosaic.ValueIdx Idealize.ShloMosaic.StableHlo Cert.AffineRelu Cert.BlockPayload
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## One written entry against the layer -/

/-- If the block of `x` a point holds is rows of `X` starting where output row `i 0` needs them, its weight block is
    `W` and its bias row is `b`, then the entry the body stores at `j` is the layer at `i`, for `i` in column `j 1`. -/
theorem entry_eq (X : S65536x1024.Idx → EReal) (W : S1024x84.Idx → EReal) (b : S84.Idx → EReal)
    (xb : Vec Ideal S2048x1024 .f32) (wb : Vec Ideal S1024x84 .f32) (bb : Vec Ideal S1x84 .f32)
    (j : S2048x84.Idx) (i : S65536x84.Idx)
    (hx : ∀ a : Fin 1024, xb (ix2 (j 0) a) = X (ix2 (i 0) a))
    (hw : wb = W)
    (hb : ∀ q : Fin 84, bb (ix2 (0 : Fin 1) q) = b (ix1 q))
    (hq : i 1 = j 1) :
    k0_pay1 (F := Ideal) xb wb bb j = affineRelu X W b i := by
  obtain ⟨p, q, rfl⟩ : ∃ (p : Fin 2048) (q : Fin 84), j = ix2 p q := ⟨j 0, j 1, eq_ix2 j⟩
  obtain ⟨r, q', rfl⟩ : ∃ (r : Fin 65536) (q' : Fin 84), i = ix2 r q' := ⟨i 0, i 1, eq_ix2 i⟩
  have hqq : q' = q := hq
  subst hqq
  subst hw
  have hx' : ∀ a : Fin 1024, xb (ix2 p a) = X (ix2 r a) := hx
  rw [payload_apply, affineRelu_ix2, hb]
  exact congrArg (fun s => max (s + b (ix1 q')) (Ideal.ofBits .f32 0x00000000#32))
    (Finset.sum_congr rfl fun a _ => by rw [hx' a])

/-! ## The arrays as the region finds them -/

/-- The bias as the region finds it: the host's reshape of the 84-vector to one row. -/
theorem bias_row (c : Dev nD) :
    (V m c main_v0 : S1x84.Idx → EReal) = shapeCast S1x84 (m ((c : Thread nD τ).loc main_arg2)) shapeCasts_S84_S1x84 := by
  dsimp only [V, hostOps0]; after_results; rfl

/-- Its entry `(u, q)` is the vector's entry `q`. -/
theorem bias_row_apply (c : Dev nD) (u : Fin 1) (q : Fin 84) :
    (V m c main_v0 : S1x84.Idx → EReal) (ix2 u q) = m ((c : Thread nD τ).loc main_arg2) (ix1 q) :=
  (congrFun (bias_row m c) (ix2 u q)).trans (shapeCast_a_1a_apply _ shapeCasts_S84_S1x84 u q)

/-! ## Where each window's block sits at a point -/

/-- The block indices, decided over the 32 points: the block of `x` moves down the rows with the output block, the weight
    and bias windows stay at their one block, and the output's column block is the only one. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every one of the 32 row blocks is some point's. -/
theorem rows_onto : ∀ q0 : Fin 32, ∃ t : Fin cfg0.N, win0_3.index t (0 : Fin 2) = q0.val :=
  (by decide +kernel : ∀ q0 : Fin 32, ∃ t : Fin grid0.N, win0_3.index t (0 : Fin 2) = q0.val)

/-! ## What a point writes back -/

/-- What point `t` writes back is block `t` of the layer of the arrays as the region finds them. -/
theorem flushed_eq (c : Dev nD) (t : Fin cfg0.N) :
    (dats m 0 c).flushed 3 t = ((cfg0.win 3).blk t).view.read (Elt Ideal)
      (affineRelu (V m c main_arg0) (V m c main_arg1) (m ((c : Thread nD τ).loc main_arg2))) := by
  rw [Value.flushed3]
  unfold out0_3
  rw [View.canon_unit_zero zero_offsets]
  simp only [View.ld_unit_zero (S := S2048x1024) zero_offsets, View.ld_unit_zero (S := S1024x84) zero_offsets,
    View.ld_unit_zero (S := S1x84) zero_offsets]
  obtain ⟨e0, e1, e2, e3, e4, e5, e6, e7⟩ := index_facts t
  funext j
  refine entry_eq (V m c main_arg0) (V m c main_arg1) (m ((c : Thread nD τ).loc main_arg2))
    (iblk m c 0 t) (iblk m c 1 t) (iblk m c 2 t) j (((cfg0.win 3).blk t).view.emb j) ?_ ?_ ?_ ?_
  · intro a
    show V m c main_arg0 (((cfg0.win 0).blk t).view.emb (ix2 (j 0) a)) = V m c main_arg0 (ix2 ((((cfg0.win 3).blk t).view.emb j) 0) a)
    refine congrArg _ (funext fun ax => Fin.ext ?_)
    match ax with
    | ⟨0, _⟩ =>
      show win0_0.index t (0 : Fin 2) * 2048 + 1 * (j 0).val = win0_3.index t (0 : Fin 2) * 2048 + 1 * (j 0).val
      rw [e0]
    | ⟨1, _⟩ =>
      show win0_0.index t (1 : Fin 2) * 1024 + 1 * a.val = a.val
      rw [e1]; omega
  · funext y
    show V m c main_arg1 (((cfg0.win 1).blk t).view.emb y) = V m c main_arg1 y
    refine congrArg _ (funext fun ax => Fin.ext ?_)
    match ax with
    | ⟨0, _⟩ =>
      show win0_1.index t (0 : Fin 2) * 1024 + 1 * (y 0).val = (y 0).val
      rw [e2]; omega
    | ⟨1, _⟩ =>
      show win0_1.index t (1 : Fin 2) * 84 + 1 * (y 1).val = (y 1).val
      rw [e3]; omega
  · intro q
    show V m c main_v0 (((cfg0.win 2).blk t).view.emb (ix2 (0 : Fin 1) q)) = _
    have hemb : ((cfg0.win 2).blk t).view.emb (ix2 (0 : Fin 1) q) = ix2 (0 : Fin 1) q := by
      refine funext fun ax => Fin.ext ?_
      match ax with
      | ⟨0, _⟩ =>
        show win0_2.index t (0 : Fin 2) * 1 + 1 * 0 = 0
        rw [e4]
      | ⟨1, _⟩ =>
        show win0_2.index t (1 : Fin 2) * 84 + 1 * q.val = q.val
        rw [e5]; omega
    rw [hemb]
    exact bias_row_apply m c 0 q
  · refine Fin.ext ?_
    show win0_3.index t (1 : Fin 2) * 84 + 1 * (j 1).val = (j 1).val
    rw [e7]; omega

/-! ## The blocks cover the array -/

/-- An index of the array is in point `t`'s block iff each coordinate is in the block's range on its axis. -/
theorem mem_block (t : Fin cfg0.N) (i : S65536x84.Idx) :
    i ∈ ((cfg0.win 3).blk t).view.set ↔ ∀ a : Fin 2, win0_3.index t a * S2048x84.size a ≤ (i a).val
      ∧ (i a).val < win0_3.index t a * S2048x84.size a + S2048x84.size a := by
  show i ∈ ((View.whole main_v1).slice (win0_3.rect t)).set ↔ _
  rw [View.set_slice_whole, Rect.mem_set_unit]
  exact Iff.rfl

/-- Row `r` lies in row block `r / 2048`, and there is one column block: every index is in some point's block. -/
theorem covered (i : S65536x84.Idx) :
    ∃ t : Fin cfg0.N, (cfg0.win 3).flush t = true ∧ i ∈ ((cfg0.win 3).blk t).view.set := by
  have hi0 : (i 0).val < 65536 := (i 0).isLt
  have hi1 : (i 1).val < 84 := (i 1).isLt
  obtain ⟨t, ht⟩ := rows_onto ⟨(i 0).val / 2048, by omega⟩
  obtain ⟨-, -, -, -, -, -, -, e7⟩ := index_facts t
  have q0 : win0_3.index t (0 : Fin 2) = (i 0).val / 2048 := ht
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 84 ≤ (i 1).val ∧ (i 1).val < win0_3.index t (1 : Fin 2) * 84 + 84
    omega

/-! ## The array after the run, and the run -/

/-- The output array after the run is the layer of the argument arrays as launched. -/
theorem final (c : Dev nD) :
    (dats m 0 c).arrAt 3 cfg0.N = affineRelu (m ((c : Thread nD τ).loc main_arg0)) (m ((c : Thread nD τ).loc main_arg1))
      (m ((c : Thread nD τ).loc main_arg2)) := by
  have h := (dats m 0 c).arrAt_eq_of_cover 3
    (affineRelu (V m c main_arg0) (V m c main_arg1) (m ((c : Thread nD τ).loc main_arg2)))
    (fun t _ => flushed_eq m c t) covered
  rw [V_main_arg0, V_main_arg1] at h
  exact h

/-- Every weakly fair execution of the idealized kernel terminates with its result array at the layer of the
    arguments, and the arguments unchanged. -/
theorem run : θ_run defs (onTc (τ := τ) (main (F := Ideal))) ⟨m, fun _ => 0, ρ⟩ fun r => ∀ c : Dev nD,
      r.2.mem ((c : Thread nD τ).loc main_v1) = affineRelu (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelLayer

end
-- ==== Proof.ReferenceLayer.lean ====
/-
  The reference program's result is the rectified affine layer.

  The reference computes one matrix product of the whole `x` with `w`, adds the bias vector laid out first as one
  row and then repeated down all 65536 rows, and takes the maximum with a constant zero array. Read at an entry
  `(r, n)`: the product is `∑ k, x (r, k) * w (k, n)`, the repeated bias reads `b n` whatever the row, and the
  constant array reads the zero word. That is `AffineRelu.affineRelu` at `(r, n)`, term for term.
-/
import proofs.«144805_j54735063220554_1_alg».proof.Proof.Gen.ReferenceIdeal.Read
import proofs.«144805_j54735063220554_1_alg».proof.Proof.AffineRelu

noncomputable section

open scoped BigOperators

namespace Cert.ReferenceLayer

open Cert.ReferenceIdeal Idealize.ShloMosaic Idealize.ShloMosaic.ValueIdx Cert.AffineRelu

/-- The left factor's index for output entry `i` and contraction coordinate `k` is `(i 0, k)`. -/
theorem left_index (i : S65536x84.Idx) (k : Fin 1024) : Read.lidx_main_v0 i k = ix2 (i 0) k :=
  funext fun a => Fin.ext (by match a with | ⟨0, _⟩ => rfl | ⟨1, _⟩ => rfl)

/-- The right factor's index for output entry `i` and contraction coordinate `k` is `(k, i 1)`. -/
theorem right_index (i : S65536x84.Idx) (k : Fin 1024) : Read.ridx_main_v0 i k = ix2 k (i 1) :=
  funext fun a => Fin.ext (by match a with | ⟨0, _⟩ => rfl | ⟨1, _⟩ => rfl)

/-- The bias entry that output entry `i` reads, through the one-row layout and its repetition, is `b (i 1)`. -/
theorem bias_index (i : S65536x84.Idx) : Read.idx_main_v1 (Read.idx_main_v2 i) = ix1 (i 1) :=
  funext fun a => Fin.ext (by match a with | ⟨0, _⟩ => rfl)

/-- The reference's last stage, as a function of the three argument arrays, is the rectified affine layer. -/
theorem reference_eq (x : (⟨S65536x1024, .f32⟩ : BufTy).Contents (Elt Ideal))
    (w : (⟨S1024x84, .f32⟩ : BufTy).Contents (Elt Ideal)) (b : (⟨S84, .f32⟩ : BufTy).Contents (Elt Ideal)) :
    Read.val_main_v4 (F := Ideal) x w b = affineRelu x w b := by
  funext i
  rw [Read.val_main_v4_apply, Read.val_main_v3_apply, Read.val_main_v0_apply, Read.val_main_v2_apply,
    Read.val_main_v1_apply, Read.val_main_call0_v0_apply, Read.val_main_call0_cst_apply]
  simp only [left_index, right_index, bias_index]
  rfl

end Cert.ReferenceLayer

end
-- ==== Proof.lean ====
/-
  A fused dense layer with rectifier: `y = max (x · w + b) 0` for `x` of 65536 rows by 1024 features, `w` of 1024 by
  84 and `b` of 84 entries — nineteen small linear heads side by side, 84 output columns in all.

  The kernel walks the rows of `x` in 32 blocks of 2048. On each block it narrows the block and the weights to a
  shorter float format, multiplies them on the matrix unit into a zero accumulator, adds the bias (laid out by the
  host as one row, repeated down the block) and clips below at zero. The reference does the same with one matrix
  product of the whole arrays.

  On exact values the narrowing is the identity, a product into a zero accumulator is the plain sum over the 1024
  features, and tiling the rows changes nothing: both programs leave, at row `r` and column `n`,

      max (∑ k, x (r, k) * w (k, n) + b n) 0

  (`AffineRelu.affineRelu`). Both sides are the same sum, the same bias entry and the same zero, so no algebraic law
  beyond reading each side entry by entry joins them, and the finiteness of the inputs is never used.

  `KernelLayer.run` is the kernel's side (each written block is a block of the layer; the blocks cover the array),
  `ReferenceLayer.reference_eq` the reference's. The three programs' termination and unchanged arguments are the
  generated frame runs; the idealized kernel is the kernel's own text read on exact values, so nothing is owed for it.
-/
import proofs.«144805_j54735063220554_1_alg».proof.Defs
import proofs.«144805_j54735063220554_1_alg».proof.Proof.Gen.Kernel
import proofs.«144805_j54735063220554_1_alg».proof.Proof.Gen.Kernel.Skeleton
import proofs.«144805_j54735063220554_1_alg».proof.Proof.Gen.Kernel.Launch
import proofs.«144805_j54735063220554_1_alg».proof.Proof.Gen.Kernel.Points
import proofs.«144805_j54735063220554_1_alg».proof.Proof.Gen.Kernel.Frame
import proofs.«144805_j54735063220554_1_alg».proof.Proof.Gen.KernelIdeal
import proofs.«144805_j54735063220554_1_alg».proof.Proof.Gen.KernelIdeal.Skeleton
import proofs.«144805_j54735063220554_1_alg».proof.Proof.Gen.KernelIdeal.Launch
import proofs.«144805_j54735063220554_1_alg».proof.Proof.Gen.KernelIdeal.Points
import proofs.«144805_j54735063220554_1_alg».proof.Proof.Gen.KernelIdeal.Frame
import proofs.«144805_j54735063220554_1_alg».proof.Proof.Gen.ReferenceIdeal
import proofs.«144805_j54735063220554_1_alg».proof.Proof.Gen.Pre_finite_inputs
import proofs.«144805_j54735063220554_1_alg».proof.Proof.Gen.KernelIdeal.Value
import proofs.«144805_j54735063220554_1_alg».proof.Proof.Gen.ReferenceIdeal.Run
import proofs.«144805_j54735063220554_1_alg».proof.Proof.Gen.ReferenceIdeal.Read
import proofs.«144805_j54735063220554_1_alg».proof.Proof.KernelLayer
import proofs.«144805_j54735063220554_1_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as launched. -/
theorem frame_kernel : Cert.frame_Kernel := fun m ρ _ => Cert.Kernel.Gen.frame m ρ

/-- So does the kernel read on exact values. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten, so there is nothing to restate. -/
theorem preserves : Cert.preserves_Kernel_KernelIdeal := trivial

/-- From memories that agree on `x`, `w` and `b`, the kernel's output array and the reference's result both end at
    the rectified affine layer of those arrays. -/
theorem algebraic : Cert.algebraic_KernelIdeal_ReferenceIdeal := by
  intro m ρ m' ρ' _ hagree
  refine ⟨_, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceLayer.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
